-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x4096x4096 .f32) (main_arg1 : FVec F S4096x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2x4096x4096 : Shape := ⟨3, ![2, 4096, 4096]⟩
abbrev S4096x4096 : Shape := ⟨2, ![4096, 4096]⟩
abbrev S8192x4096 : Shape := ⟨2, ![8192, 4096]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S2x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  transposes_S4096x4096_S4096x4096_1_0 : S4096x4096.Transposes [1, 0] S4096x4096
  shapeCasts_S2x4096x4096_S8192x4096 : S2x4096x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S2x4096x4096 : S8192x4096.ShapeCasts S2x4096x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096x4096, .f32⟩
  | .hbm, ⟨3, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Spec.lean ====
/-
  The function both programs compute, with no program in sight.

  The activations `x : [2, 4096, 4096]` are 8192 rows of 4096 features: row `4096 * b + s` of the flattened array is
  position `(b, s)`. The weight enters only through its sign pattern `sw : [4096 (out), 4096 (in)]`. Entry `(b, s, o)`
  of the result is `∑ₖ x[b, s, k] * sw[o, k]`.

  One side forms this as ONE sum over the 4096 features. The other multiplies the flattened activations
  `X : [8192, 4096]` by the transposed sign pattern `W : [4096 (in), 4096 (out)]` with the features cut into four
  consecutive blocks of 1024: starting from zero it adds the four partial sums in turn. Addition of extended reals is
  commutative and associative (and `0 + a = a`), so the four partial sums are the one sum: no finiteness is needed.
-/
import Idealize.ShloMosaic.PureOps.Ideal
import Idealize.ShloMosaic.Lib.ValueIdx
import proofs.«122801_j69595650064888_2_alg».proof.Proof.LibBlockSum

noncomputable section

open scoped BigOperators
open Idealize.ShloMosaic Idealize.ShloMosaic.ValueIdx

namespace Cert.SignLinear

/-- The flattened activations, and the flattened result: 8192 rows by 4096 columns. -/
abbrev Rows : Shape := ⟨2, ![8192, 4096]⟩
/-- A 4096 by 4096 weight, in either orientation. -/
abbrev Wt : Shape := ⟨2, ![4096, 4096]⟩
/-- The activations and the result as given: 2 batches of 4096 positions of 4096 values. -/
abbrev Act : Shape := ⟨3, ![2, 4096, 4096]⟩
/-- One 1024 by 1024 tile. -/
abbrev Tile : Shape := ⟨2, ![1024, 1024]⟩

/-- Position `k` of block `kb`, among four consecutive blocks of 1024: index `1024 * kb + k` of 4096. -/
def at4 (kb : Fin 4) (k : Fin 1024) : Fin 4096 := ⟨1024 * kb.val + k.val, by have := kb.isLt; have := k.isLt; omega⟩

/-- Row `p` of row block `i`, among eight consecutive blocks of 1024: index `1024 * i + p` of 8192. -/
def at8 (i : Fin 8) (p : Fin 1024) : Fin 8192 := ⟨1024 * i.val + p.val, by have := i.isLt; have := p.isLt; omega⟩

/-- Flattened row `4096 * b + s` of position `(b, s)`. -/
def flat (b : Fin 2) (s : Fin 4096) : Fin 8192 := ⟨4096 * b.val + s.val, by have := b.isLt; have := s.isLt; omega⟩

/-- THE RESULT as one sum: entry `(b, s, o)` is `∑ₖ x[b, s, k] * sw[o, k]`. -/
def G (x : Act.Idx → EReal) (sw : Wt.Idx → EReal) : Act.Idx → EReal := fun i =>
  ∑ k : Fin 4096, x (ix3 (⟨(i 0).val, (i 0).isLt⟩ : Fin 2) (⟨(i 1).val, (i 1).isLt⟩ : Fin 4096) k)
    * sw (ix2 (⟨(i 2).val, (i 2).isLt⟩ : Fin 4096) k)

theorem G_ix3 (x : Act.Idx → EReal) (sw : Wt.Idx → EReal) (b : Fin 2) (s o : Fin 4096) :
    G x sw (ix3 b s o) = ∑ k : Fin 4096, x (ix3 b s k) * sw (ix2 o k) := rfl

/-- Entry `(r, n)` of the product of `X : [8192, 4096]` with `W : [4096, 4096]`. -/
def mm (X : Rows.Idx → EReal) (W : Wt.Idx → EReal) (r : Fin 8192) (n : Fin 4096) : EReal :=
  ∑ k : Fin 4096, X (ix2 r k) * W (ix2 k n)

/-- The same product as a whole array. -/
def MM (X : Rows.Idx → EReal) (W : Wt.Idx → EReal) : Rows.Idx → EReal := fun j =>
  mm X W (⟨(j 0).val, (j 0).isLt⟩ : Fin 8192) (⟨(j 1).val, (j 1).isLt⟩ : Fin 4096)

theorem MM_ix2 (X : Rows.Idx → EReal) (W : Wt.Idx → EReal) (r : Fin 8192) (n : Fin 4096) :
    MM X W (ix2 r n) = mm X W r n := rfl

/-- The partial sum of entry `(r, n)` over feature block `kb`. -/
def part (X : Rows.Idx → EReal) (W : Wt.Idx → EReal) (r : Fin 8192) (n : Fin 4096) (kb : Fin 4) : EReal :=
  ∑ k : Fin 1024, X (ix2 r (at4 kb k)) * W (ix2 (at4 kb k) n)

/-- FOUR PARTIAL SUMS ADDED IN TURN FROM ZERO ARE THE ONE SUM. -/
theorem four_parts (X : Rows.Idx → EReal) (W : Wt.Idx → EReal) (r : Fin 8192) (n : Fin 4096) :
    (((0 + part X W r n 0) + part X W r n 1) + part X W r n 2) + part X W r n 3 = mm X W r n := by
  have h := Cert.LibBlockSum.sum_blocks_mul 4 1024 (fun k : Fin 4096 => X (ix2 r k) * W (ix2 k n))
  rw [Fin.sum_univ_four] at h
  rw [zero_add]
  exact h

end Cert.SignLinear

end
-- ==== Proof.HostIn.lean ====
/-
  The host operations around the region, read at an index on the extended reals. Before it: the activations
  flattened from `[2, 4096, 4096]` to `[8192, 4096]` (row `4096 * b + s` is position `(b, s)`), and the sign pattern of the
  weight transposed (entry `(k, n)` is the pattern's `(n, k)`); the narrowings to the shorter float format are the
  identity. After it: the result array read back as `[2, 4096, 4096]` by the inverse re-indexing. The sign pattern is
  carried as one unopened function of the weight.
-/
import proofs.«122801_j69595650064888_2_alg».proof.Proof.Gen.KernelIdeal.Frame
import proofs.«122801_j69595650064888_2_alg».proof.Proof.Spec
import Idealize.ShloMosaic.Lib.Pipeline.Value
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx

namespace Cert.KernelIdeal.HostIn

open Cert.KernelIdeal Cert.KernelIdeal.Gen Cert.SignLinear

variable (m : (ℓ : Loc nD τ sig) → Buf (Elt Ideal) ℓ)

/-- Flattening `[2, 4096, 4096]` to `[8192, 4096]` keeps the row-major position: row `4096 * b + s`, column `k` of
    the flattened array is entry `(b, s, k)` of the original, both at position `(4096 * b + s) * 4096 + k`. -/
theorem reshape_in (x : S2x4096x4096.Idx → Ideal .f32) (b : Fin 2) (s k : Fin 4096) :
    shapeCast S8192x4096 x shapeCasts_S2x4096x4096_S8192x4096 (ix2 (flat b s) k) = x (ix3 b s k) :=
  shapeCast_apply x shapeCasts_S2x4096x4096_S8192x4096 (ix2 (flat b s) k) (ix3 b s k) (by
    rw [Shape.rowMajor_val_three, Shape.rowMajor_val_two]
    show (b.val * 4096 + s.val) * 4096 + k.val = (4096 * b.val + s.val) * 4096 + k.val
    omega)

/-- The inverse re-indexing: entry `(b, s, o)` of an `[8192, 4096]` array read as `[2, 4096, 4096]` is its entry at
    row `4096 * b + s`, column `o`. -/
theorem reshape_out (x : S8192x4096.Idx → Ideal .f32) (b : Fin 2) (s o : Fin 4096) :
    shapeCast S2x4096x4096 x shapeCasts_S8192x4096_S2x4096x4096 (ix3 b s o) = x (ix2 (flat b s) o) :=
  shapeCast_apply x shapeCasts_S8192x4096_S2x4096x4096 (ix3 b s o) (ix2 (flat b s) o) (by
    rw [Shape.rowMajor_val_three, Shape.rowMajor_val_two]
    show (4096 * b.val + s.val) * 4096 + o.val = (b.val * 4096 + s.val) * 4096 + o.val
    omega)

/-- The left operand the region finds: the activations flattened to 8192 rows, then narrowed to the shorter float
    format. Over the extended reals the narrowing changes nothing, so row `4096 * b + s`, column `k` is the activation
    at `(b, s, k)`. -/
theorem V_v4_apply (c : Dev nD) (b : Fin 2) (s k : Fin 4096) :
    (V m c main_v4 : S8192x4096.Idx → Ideal .bf16) (ix2 (flat b s) k)
      = (m ((c : Thread nD τ).loc main_arg0) : S2x4096x4096.Idx → Ideal .f32) (ix3 b s k) := by
  have e : (V m c main_v4 : S8192x4096.Idx → Ideal .bf16)
      = (truncf (F := Ideal) .bf16 (shapeCast S8192x4096 (m ((c : Thread nD τ).loc main_arg0) : S2x4096x4096.Idx → Ideal .f32)
          shapeCasts_S2x4096x4096_S8192x4096) bitsLt_bf16_f32 : S8192x4096.Idx → Ideal .bf16) := by
    show StableHlo.after hostOps0 (fun b => m (c, b)) (Proc.devRef .tc main_v4) = _
    after_results
    rfl
  refine (congrFun e (ix2 (flat b s) k)).trans ?_
  -- the narrowing is the identity on each entry; what is left is the flattening read at an index
  exact reshape_in _ b s k

/-- The right operand the region finds: the sign pattern of the weight, narrowed (the identity over the extended
    reals) and transposed, so its entry `(k, n)` is the sign pattern's entry `(n, k)`. The sign pattern itself is kept
    as one unopened function of the weight. -/
theorem V_v2_apply (c : Dev nD) (k n : Fin 4096) :
    (V m c main_v2 : S4096x4096.Idx → Ideal .bf16) (ix2 k n)
      = (Host.sign (m ((c : Thread nD τ).loc main_arg1)) : S4096x4096.Idx → Ideal .f32) (ix2 n k) := by
  have e : (V m c main_v2 : S4096x4096.Idx → Ideal .bf16)
      = (transpose S4096x4096 [1, 0]
          (truncf (F := Ideal) .bf16 (Host.sign (m ((c : Thread nD τ).loc main_arg1)) : S4096x4096.Idx → Ideal .f32)
            bitsLt_bf16_f32 : S4096x4096.Idx → Ideal .bf16)
          transposes_S4096x4096_S4096x4096_1_0 : S4096x4096.Idx → Ideal .bf16) := by
    show StableHlo.after hostOps0 (fun b => m (c, b)) (Proc.devRef .tc main_v2) = _
    after_results
  refine (congrFun e (ix2 k n)).trans ?_
  -- the transpose with permutation [1, 0] reads, at (k, n), its operand at (n, k)
  refine (transpose_apply _ _ transposes_S4096x4096_S4096x4096_1_0 (ix2 k n) (ix2 n k)
    (fun a => match a with | ⟨0, _⟩ => rfl | ⟨1, _⟩ => rfl)).trans ?_
  -- and the narrowing is the identity on that entry
  rfl

/-- The program's result: the last operation reads the region's `[8192, 4096]` result array `A` as
    `[2, 4096, 4096]`, so entry `(b, s, o)` is `A` at row `4096 * b + s`, column `o`. -/
theorem v6_of_final (c : Dev nD) (A : Buf (Elt Ideal) ((c : Thread nD τ).loc main_v5))
    (hA : (dats m 0 c).arrAt 2 cfg0.N = A) (b : Fin 2) (s o : Fin 4096) :
    (Pipeline.afterTail₀ cfgs (dats m) 0 (V0 m) [hostOps1] c main_v6 : S2x4096x4096.Idx → Ideal .f32) (ix3 b s o)
      = (A : S8192x4096.Idx → Ideal .f32) (ix2 (flat b s) o) := by
  have e : (Pipeline.afterTail₀ cfgs (dats m) 0 (V0 m) [hostOps1] c main_v6 : S2x4096x4096.Idx → Ideal .f32)
      = (shapeCast S2x4096x4096 (A : S8192x4096.Idx → Ideal .f32) shapeCasts_S8192x4096_S2x4096x4096
          : S2x4096x4096.Idx → Ideal .f32) := by
    unfold Pipeline.afterTail₀
    show StableHlo.after hostOps1 _ (Proc.devRef .tc main_v6) = _
    after_results
    -- the region's third array, as the later operations find it, is the result array `A`
    have hw : Pipeline.withArrays (cfgs 0).spec c (V0 m c) (fun w => (dats m 0 c).arrAt w (cfgs 0).N)
        (Proc.devRef .tc main_v5) = A :=
      (Pipeline.withArrays_arr spec0 launch0.win.arr_inj c _ _ 2).trans hA
    rw [hw]
    rfl
  refine (congrFun e (ix3 b s o)).trans ?_
  exact reshape_out _ b s o

end Cert.KernelIdeal.HostIn

end
-- ==== Proof.Blocks.lean ====
/-
  Which block of which array each window is on at a grid point. The 128 points are `16 * i + 4 * j + kb` with `i` the row
  block (of 8), `j` the column block (of 4) and `kb` the feature block (of 4), the feature block moving fastest. The
  activations' window is on block `(i, kb)`, the weight's on `(kb, j)`, the result's on `(i, j)`; element `(a, b)` of a
  tile on block `(u, v)` is entry `(1024 * u + a, 1024 * v + b)` of its array.
-/
import proofs.«122801_j69595650064888_2_alg».proof.Proof.Gen.KernelIdeal.Frame
import proofs.«122801_j69595650064888_2_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.SignLinear

/-- Window 0's block index at every point of the grid, in division form: (row block, feature block). -/
theorem index0_div : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)

/-- Window 1's block index at every point of the grid, in division form: (feature block, column block). -/
theorem index1_div : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

/-- Window 2's block index at every point of the grid, in division form: (row block, column block). -/
theorem index2_div : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)

/-- At point `16 * i + 4 * j + kb` window 0 is on block `(i, kb)` of the activations. -/
theorem index0 (t : Fin cfg0.N) (i : Fin 8) (j kb : Fin 4) (ht : t.val = 16 * i.val + 4 * j.val + kb.val) :
    win0_0.index t 0 = i.val ∧ win0_0.index t 1 = kb.val := by
  have hi := i.isLt; have hj := j.isLt; have hk := kb.isLt
  obtain ⟨h0, h1⟩ := index0_div t
  refine ⟨h0.trans ?_, h1.trans ?_⟩ <;> omega

/-- At point `16 * i + 4 * j + kb` window 1 is on block `(kb, j)` of the weight. -/
theorem index1 (t : Fin cfg0.N) (i : Fin 8) (j kb : Fin 4) (ht : t.val = 16 * i.val + 4 * j.val + kb.val) :
    win0_1.index t 0 = kb.val ∧ win0_1.index t 1 = j.val := by
  have hi := i.isLt; have hj := j.isLt; have hk := kb.isLt
  obtain ⟨h0, h1⟩ := index1_div t
  refine ⟨h0.trans ?_, h1.trans ?_⟩ <;> omega

/-- At point `16 * i + 4 * j + kb` window 2 is on block `(i, j)` of the result. -/
theorem index2 (t : Fin cfg0.N) (i : Fin 8) (j kb : Fin 4) (ht : t.val = 16 * i.val + 4 * j.val + kb.val) :
    win0_2.index t 0 = i.val ∧ win0_2.index t 1 = j.val := by
  have hi := i.isLt; have hj := j.isLt; have hk := kb.isLt
  obtain ⟨h0, h1⟩ := index2_div t
  refine ⟨h0.trans ?_, h1.trans ?_⟩ <;> omega

variable (m : (ℓ : Loc nD τ sig) → Buf (Elt Ideal) ℓ)

/-- Element `(p, k)` of window 0's tile at the point is entry `(1024 * i + p, 1024 * kb + k)` of the activations: on each
    axis a tile's element sits at block index times 1024 plus its own coordinate. -/
theorem iblk0_apply (c : Dev nD) (t : Fin cfg0.N) (i : Fin 8) (j kb : Fin 4) (ht : t.val = 16 * i.val + 4 * j.val + kb.val)
    (p k : Fin 1024) :
    (iblk m c 0 t : S1024x1024.Idx → Ideal .bf16) (ix2 p k)
      = (V m c main_v4 : S8192x4096.Idx → Ideal .bf16) (ix2 (at8 i p) (at4 kb k)) := by
  unfold iblk
  rw [View.read_apply]
  show V m c main_v4 _ = V m c main_v4 _
  congr 1
  funext a
  apply Fin.ext
  match a with
  | ⟨0, _⟩ =>
    show win0_0.index t 0 * 1024 + 1 * p.val = 1024 * i.val + p.val
    rw [(index0 t i j kb ht).1]; omega
  | ⟨1, _⟩ =>
    show win0_0.index t 1 * 1024 + 1 * k.val = 1024 * kb.val + k.val
    rw [(index0 t i j kb ht).2]; omega

/-- Element `(k, q)` of window 1's tile at the point is entry `(1024 * kb + k, 1024 * j + q)` of the weight. -/
theorem iblk1_apply (c : Dev nD) (t : Fin cfg0.N) (i : Fin 8) (j kb : Fin 4) (ht : t.val = 16 * i.val + 4 * j.val + kb.val)
    (k q : Fin 1024) :
    (iblk m c 1 t : S1024x1024.Idx → Ideal .bf16) (ix2 k q)
      = (V m c main_v2 : S4096x4096.Idx → Ideal .bf16) (ix2 (at4 kb k) (at4 j q)) := by
  unfold iblk
  rw [View.read_apply]
  show V m c main_v2 _ = V m c main_v2 _
  congr 1
  funext a
  apply Fin.ext
  match a with
  | ⟨0, _⟩ =>
    show win0_1.index t 0 * 1024 + 1 * k.val = 1024 * kb.val + k.val
    rw [(index1 t i j kb ht).1]; omega
  | ⟨1, _⟩ =>
    show win0_1.index t 1 * 1024 + 1 * q.val = 1024 * j.val + q.val
    rw [(index1 t i j kb ht).2]; omega

/-- The output window's block at point `t`, read off ANY contents `A` of the result array: element `(p, q)` of the
    tile is entry `(1024 * i + p, 1024 * j + q)` of the array. -/
theorem oblk2_apply (t : Fin cfg0.N) (i : Fin 8) (j kb : Fin 4) (ht : t.val = 16 * i.val + 4 * j.val + kb.val)
    (A : S8192x4096.Idx → Ideal .f32) (p q : Fin 1024) :
    (((cfg0.win 2).blk t).view.read (Elt Ideal) A : S1024x1024.Idx → Ideal .f32) (ix2 p q)
      = A (ix2 (at8 i p) (at4 j q)) := by
  rw [View.read_apply]
  show A _ = A _
  congr 1
  funext a
  apply Fin.ext
  match a with
  | ⟨0, _⟩ =>
    show win0_2.index t 0 * 1024 + 1 * p.val = 1024 * i.val + p.val
    rw [(index2 t i j kb ht).1]; omega
  | ⟨1, _⟩ =>
    show win0_2.index t 1 * 1024 + 1 * q.val = 1024 * j.val + q.val
    rw [(index2 t i j kb ht).2]; omega

end Cert.KernelIdeal.Blocks

end
-- ==== Proof.Pieces.lean ====
/-
  What each control case of the tile body leaves behind, as the body's two named values: the zero fill, and the
  accumulate step (what the scratch held, plus the product of the two input tiles). The body moves whole 1024 by 1024
  arrays only, so a store leaves exactly the value stored and a load reads exactly the contents: at the first feature
  block the scratch ends at the accumulate step over the zero fill, at the later ones at the accumulate step over what
  it held, and at the last one the output's staging buffer receives that same value.
-/
import proofs.«122801_j69595650064888_2_alg».proof.Proof.Gen.KernelIdeal.Frame
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

/-- The offset of a block that starts at the origin of a two-axis array is zero along both axes. -/
theorem origin_off : (![0, 0] : Fin 2 → Nat) = fun _ => 0 := funext fun a => by fin_cases a <;> rfl

/-
  What each control case of the body leaves behind, as the body's named payloads.
  Every load and store of the body moves a whole 1024 by 1024 array at offset (0, 0), so a store
  leaves exactly its payload and a load of a whole buffer reads exactly its contents.
-/

theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  -- the two pieces cover the scratch, so what is read back is their canonical value;
  -- the later piece is a whole-array store, so that value is its payload, whose first
  -- argument is a whole-array load of the earlier whole-array store: the zero payload
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin_off, View.readCov_unit_zero (S := S1024x1024) _ origin_off]
  simp only [View.readAt_eq_ld, h3.read_unread, h4.read_unread, View.ld_unit_zero (S := S1024x1024) origin_off]

theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  -- one whole-array store: its payload, whose three arguments are whole-array loads of
  -- whole buffers, that is, the buffers' contents
  unfold sout0_B_0
  rw [View.read_writes_eq_canon _ _ _ (scover0_B_0 c i a3 h3 a4 h4 a5 h5 a6 h6 hc0 hc1 x0 x1 xs0)]
  unfold kernelRun0_B
  dsimp only
  rw [View.canon_unit_zero (S := S1024x1024) origin_off]
  simp only [View.readAt_eq_ld, h3.read_unread, h4.read_unread, h6.read_unread, View.ld_unit_zero (S := S1024x1024) origin_off]

theorem sout_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  -- as in case B: one whole-array store of the payload of the buffers' contents
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero (S := S1024x1024) origin_off]
  simp only [View.readAt_eq_ld, h3.read_unread, h4.read_unread, h6.read_unread, View.ld_unit_zero (S := S1024x1024) origin_off]

theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  -- the output buffer receives one whole-array store of a whole-array load of the scratch
  -- made after the scratch's own whole-array store: the same payload
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero (S := S1024x1024) origin_off, View.readCov_unit_zero (S := S1024x1024) _ origin_off]
  simp only [View.readAt_eq_ld, h3.read_unread, h4.read_unread, h6.read_unread, View.ld_unit_zero (S := S1024x1024) origin_off]

end Cert.KernelIdeal.Pieces

end
-- ==== Proof.Payload.lean ====
/-
  The body's two values read at an index, on the extended reals: the zero fill is `0` everywhere, and the accumulate
  step at `(p, q)` is the running value there plus `∑ₖ a[p, k] * b[k, q]` over the 1024 positions of the tile's
  contraction (a tile product into a zero accumulator is that plain sum; a cast of a shape to itself is the identity).
-/
import proofs.«122801_j69595650064888_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.KernelIdeal.Payload

open Cert.KernelIdeal Cert.KernelIdeal.Gen

/-- The zero fill: a splat of the word of `0.0`, cast to its own shape, reads the extended real `0` everywhere. -/
theorem pay1_apply (p q : Fin 1024) : k0_pay1 (F := Ideal) (ix2 p q) = (0 : EReal) := by
  unfold k0_pay1
  show shapeCast S1024x1024 (broadcast S1024x1024 (Scalar.ofBits (F := Ideal) .f32 0x00000000#32))
      shapeCasts_S1024x1024_S1024x1024 (ix2 p q) = (0 : EReal)
  rw [shapeCast_self]
  exact Ideal.ofBits_zero_f32

/-- On the free axis of the left tile (its rows) the operand index keeps the output's row. -/
theorem lhs0 (j : S1024x1024.Idx) (c : dot_S1024x1024_S1024x1024_S1024x1024_1_0_0_1_n_n.contr.Idx) :
    (dot_S1024x1024_S1024x1024_S1024x1024_1_0_0_1_n_n.lhsIdx j c 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- On the contracted axis of the left tile (its columns) the operand index is the contraction position. -/
theorem lhs1 (j : S1024x1024.Idx) (c : dot_S1024x1024_S1024x1024_S1024x1024_1_0_0_1_n_n.contr.Idx) :
    (dot_S1024x1024_S1024x1024_S1024x1024_1_0_0_1_n_n.lhsIdx j c 1).val = (c ⟨0, by decide⟩).val :=
  dot_S1024x1024_S1024x1024_S1024x1024_1_0_0_1_n_n.lhsIdx_val_of_single rfl j c

/-- On the contracted axis of the right tile (its rows) the operand index is the contraction position. -/
theorem rhs0 (j : S1024x1024.Idx) (c : dot_S1024x1024_S1024x1024_S1024x1024_1_0_0_1_n_n.contr.Idx) :
    (dot_S1024x1024_S1024x1024_S1024x1024_1_0_0_1_n_n.rhsIdx j c 0).val = (c ⟨0, by decide⟩).val :=
  dot_S1024x1024_S1024x1024_S1024x1024_1_0_0_1_n_n.rhsIdx_val_of_single rfl j c

/-- On the free axis of the right tile (its columns) the operand index keeps the output's column. -/
theorem rhs1 (j : S1024x1024.Idx) (c : dot_S1024x1024_S1024x1024_S1024x1024_1_0_0_1_n_n.contr.Idx) :
    (dot_S1024x1024_S1024x1024_S1024x1024_1_0_0_1_n_n.rhsIdx j c 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The tile product into a zero accumulator, read at entry `(p, q)`: the sum over the 1024 contraction positions
    `k` of `a[p, k] * b[k, q]`. -/
theorem matmul_tile_apply (a b : FVec Ideal S1024x1024 .bf16) (p q : Fin 1024) :
    FloatOps.matmul dot_S1024x1024_S1024x1024_S1024x1024_1_0_0_1_n_n none a b (constant S1024x1024 .f32 0x00000000#32) (ix2 p q)
      = ∑ k : Fin 1024, a (ix2 p k) * b (ix2 k q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun d => Fin.ext (by
    match d with
    | ⟨0, _⟩ => exact lhs0 _ _
    | ⟨1, _⟩ => exact (lhs1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun d => Fin.ext (by
    match d with
    | ⟨0, _⟩ => exact (rhs0 _ _).trans hk
    | ⟨1, _⟩ => exact rhs1 _ _)
  rw [el, er]

/-- The accumulate step: the two tiles cast to their own shape, multiplied into a zero accumulator, added to the
    running value, cast to its own shape. Entry `(p, q)` is the running value there plus the tile product's entry. -/
theorem pay2_apply (acc : Vec Ideal S1024x1024 .f32) (a b : Vec Ideal S1024x1024 .bf16) (p q : Fin 1024) :
    k0_pay2 (F := Ideal) acc a b (ix2 p q) = acc (ix2 p q) + ∑ k : Fin 1024, a (ix2 p k) * b (ix2 k q) := by
  unfold k0_pay2
  show shapeCast S1024x1024 (addf acc (matmul dot_S1024x1024_S1024x1024_S1024x1024_1_0_0_1_n_n none
        (shapeCast S1024x1024 a shapeCasts_S1024x1024_S1024x1024) (shapeCast S1024x1024 b shapeCasts_S1024x1024_S1024x1024)
        (constant (F := Ideal) S1024x1024 .f32 0x00000000#32))) shapeCasts_S1024x1024_S1024x1024 (ix2 p q) = _
  rw [shapeCast_self, shapeCast_self, shapeCast_self]
  exact congrArg (acc (ix2 p q) + ·) (matmul_tile_apply a b p q)

end Cert.KernelIdeal.Payload

end
-- ==== Proof.Accum.lean ====
/-
  What the carried scratch holds after each grid point, and what a flushing point writes back.

  The 128 points run in groups of four consecutive points `16 * i + 4 * j + kb` (`kb = 0, 1, 2, 3`) that share the row
  block `i` and the column block `j` and walk the four feature blocks. At `kb = 0` the scratch is zeroed and receives
  `0 + P₀`; at `kb = 1, 2, 3` it receives what it held plus `P_kb`, where `P_kb` is the product of the point's two input
  tiles; at `kb = 3` the output's staging buffer receives the scratch as just updated. So the tile written back at the
  group's last point is `(((0 + P₀) + P₁) + P₂) + P₃`, the four partial sums over the feature blocks of entry
  `(1024 * i + p, 1024 * j + q)` of the whole product: the one sum over all 4096 features.
-/
import proofs.«122801_j69595650064888_2_alg».proof.Proof.Gen.KernelIdeal.Frame
import proofs.«122801_j69595650064888_2_alg».proof.Proof.Spec
import proofs.«122801_j69595650064888_2_alg».proof.Proof.Pieces
import proofs.«122801_j69595650064888_2_alg».proof.Proof.Payload
import proofs.«122801_j69595650064888_2_alg».proof.Proof.Blocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.SignLinear

variable (m : (ℓ : Loc nD τ sig) → Buf (Elt Ideal) ℓ)

/-- Point `t`'s tile of the first operand, as a plain function of the tile index. -/
def tileA (c : Dev nD) (t : Fin cfg0.N) : S1024x1024.Idx → EReal := iblk m c 0 t
/-- Point `t`'s tile of the second operand. -/
def tileB (c : Dev nD) (t : Fin cfg0.N) : S1024x1024.Idx → EReal := iblk m c 1 t

/-- Entry `(p, q)` of the product of the two input tiles of point `t`. -/
def tileProd (c : Dev nD) (t : Fin cfg0.N) (p q : Fin 1024) : EReal :=
  ∑ k : Fin 1024, tileA m c t (ix2 p k) * tileB m c t (ix2 k q)

/-- The product of point `16 * i + 4 * j + kb`'s tiles is the partial sum over feature block `kb` of entry
    `(1024 * i + p, 1024 * j + q)` of the product of the two arrays the region finds. -/
theorem tileProd_eq (c : Dev nD) (t : Fin cfg0.N) (i : Fin 8) (j kb : Fin 4) (ht : t.val = 16 * i.val + 4 * j.val + kb.val)
    (p q : Fin 1024) :
    tileProd m c t p q
      = part (V m c main_v4 : S8192x4096.Idx → Ideal .bf16) (V m c main_v2 : S4096x4096.Idx → Ideal .bf16) (at8 i p) (at4 j q) kb := by
  unfold tileProd part
  refine Finset.sum_congr rfl fun k _ => ?_
  exact congrArg₂ (· * ·) (Blocks.iblk0_apply m c t i j kb ht p k) (Blocks.iblk1_apply m c t i j kb ht k q)

/-- The scratch after a group's first point: zero plus the point's tile product. -/
theorem scr_first (c : Dev nD) (n : ℕ) (hn : n < cfg0.N) (h0 : n % 4 = 0) (p q : Fin 1024) :
    ((outsAt0 m c n hn).2 : S1024x1024.Idx → Ideal .f32) (ix2 p q) = 0 + tileProd m c ⟨n, hn⟩ p q := by
  have h1 : ¬n % 4 = 3 := by omega
  rw [outsAt0_A m c ⟨n, hn⟩ h0 h1]
  dsimp only
  rw [Pieces.sout_A]
  refine (Payload.pay2_apply (k0_pay1 (F := Ideal)) (iblk m c 0 ⟨n, hn⟩) (iblk m c 1 ⟨n, hn⟩) p q).trans ?_
  rw [Payload.pay1_apply]
  rfl

/-- The scratch after a later point of a group: what the point before left, plus the point's tile product. -/
theorem scr_next (c : Dev nD) (n : ℕ) (hn : n < cfg0.N) (h0 : ¬n % 4 = 0) (p q : Fin 1024) :
    ((outsAt0 m c n hn).2 : S1024x1024.Idx → Ideal .f32) (ix2 p q)
      = ((outsAt0 m c (n - 1) (Nat.lt_of_le_of_lt (Nat.sub_le _ _) hn)).2 : S1024x1024.Idx → Ideal .f32) (ix2 p q)
        + tileProd m c ⟨n, hn⟩ p q := by
  by_cases h1 : n % 4 = 3
  · rw [outsAt0_C m c ⟨n, hn⟩ h0 h1]
    dsimp only
    rw [Pieces.sout_C]
    exact Payload.pay2_apply _ (iblk m c 0 ⟨n, hn⟩) (iblk m c 1 ⟨n, hn⟩) p q
  · rw [outsAt0_B m c ⟨n, hn⟩ h0 h1]
    dsimp only
    rw [Pieces.sout_B]
    exact Payload.pay2_apply _ (iblk m c 0 ⟨n, hn⟩) (iblk m c 1 ⟨n, hn⟩) p q

/-- The output's staging buffer after a group's last point: the scratch as that point leaves it. -/
theorem out_last (c : Dev nD) (n : ℕ) (hn : n < cfg0.N) (h1 : n % 4 = 3) (p q : Fin 1024) :
    ((outsAt0 m c n hn).1 : S1024x1024.Idx → Ideal .f32) (ix2 p q)
      = ((outsAt0 m c (n - 1) (Nat.lt_of_le_of_lt (Nat.sub_le _ _) hn)).2 : S1024x1024.Idx → Ideal .f32) (ix2 p q)
        + tileProd m c ⟨n, hn⟩ p q := by
  have h0 : ¬n % 4 = 0 := by omega
  rw [outsAt0_C m c ⟨n, hn⟩ h0 h1]
  dsimp only
  rw [Pieces.out_C]
  exact Payload.pay2_apply _ (iblk m c 0 ⟨n, hn⟩) (iblk m c 1 ⟨n, hn⟩) p q

/-- THE TILE WRITTEN BACK. At the last point `16 * i + 4 * j + 3` of a group the output's staging buffer holds, at
    `(p, q)`, entry `(1024 * i + p, 1024 * j + q)` of the product of the two arrays the region finds: the four partial
    sums added in turn from zero are the one sum. -/
theorem flushed_tile (c : Dev nD) (n : ℕ) (hn : n < cfg0.N) (i : Fin 8) (j : Fin 4) (hnij : n = 16 * i.val + 4 * j.val + 3)
    (p q : Fin 1024) :
    ((outsAt0 m c n hn).1 : S1024x1024.Idx → Ideal .f32) (ix2 p q)
      = mm (V m c main_v4 : S8192x4096.Idx → Ideal .bf16) (V m c main_v2 : S4096x4096.Idx → Ideal .bf16) (at8 i p) (at4 j q) := by
  have hN : cfg0.N = 128 := N_0
  have hi := i.isLt
  have hj := j.isLt
  have h3 : n - 1 < cfg0.N := by omega
  have h2 : n - 1 - 1 < cfg0.N := by omega
  have h1 : n - 1 - 1 - 1 < cfg0.N := by omega
  rw [out_last m c n hn (by omega) p q, scr_next m c (n - 1) h3 (by omega) p q,
    scr_next m c (n - 1 - 1) h2 (by omega) p q, scr_first m c (n - 1 - 1 - 1) h1 (by omega) p q,
    tileProd_eq m c ⟨n, hn⟩ i j 3 (by show n = 16 * i.val + 4 * j.val + 3; exact hnij) p q,
    tileProd_eq m c ⟨n - 1, h3⟩ i j 2 (by show n - 1 = 16 * i.val + 4 * j.val + 2; omega) p q,
    tileProd_eq m c ⟨n - 1 - 1, h2⟩ i j 1 (by show n - 1 - 1 = 16 * i.val + 4 * j.val + 1; omega) p q,
    tileProd_eq m c ⟨n - 1 - 1 - 1, h1⟩ i j 0 (by show n - 1 - 1 - 1 = 16 * i.val + 4 * j.val + 0; omega) p q]
  exact four_parts _ _ _ _

end Cert.KernelIdeal.Accum

end
-- ==== Proof.Final.lean ====
/-
  From tiles to the whole array. The output is written back only at the last point of each group of four,
  `16 * i + 4 * j + 3`, and what is written there is tile `(i, j)` of the product of the two arrays the region
  finds. The 8 by 4 tiles of 1024 by 1024 cover the 8192 by 4096 result, so the result array ends holding the
  product: entry `(r, n)` is covered by the tile of row block `r / 1024` and column block `n / 1024`.
-/
import proofs.«122801_j69595650064888_2_alg».proof.Proof.Gen.KernelIdeal.Frame
import proofs.«122801_j69595650064888_2_alg».proof.Proof.Spec
import proofs.«122801_j69595650064888_2_alg».proof.Proof.Blocks
import proofs.«122801_j69595650064888_2_alg».proof.Proof.Accum
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Final

open Cert.KernelIdeal Cert.KernelIdeal.Gen Cert.SignLinear

variable (m : (ℓ : Loc nD τ sig) → Buf (Elt Ideal) ℓ)

/-- The product of the two arrays the region finds, as contents of the result array. -/
def product (c : Dev nD) : Buf (Elt Ideal) ((c : Thread nD τ).loc main_v5) :=
  MM (V m c main_v4 : S8192x4096.Idx → Ideal .bf16) (V m c main_v2 : S4096x4096.Idx → Ideal .bf16)

/-- What a write-back writes is the point's tile of the product: a writing point is the last point
    `16 * i + 4 * j + 3` of a group, the staging buffer then holds at `(p, q)` entry `(1024 * i + p, 1024 * j + q)` of the
    product, and that is where element `(p, q)` of the point's tile sits in the array. -/
theorem flushed_eq (c : Dev nD) (t : Fin cfg0.N) (hf : (cfg0.win 2).flush t = true) :
    (dats m 0 c).flushed 2 t = ((cfg0.win 2).blk t).view.read (Elt Ideal) (product m c) := by
  have hN : cfg0.N = 128 := N_0
  have h3 : t.val % 4 = 3 := (flush0_2 t).mp hf
  have htlt := t.isLt
  have ht : t.val = 16 * (⟨t.val / 16, by omega⟩ : Fin 8).val + 4 * (⟨t.val / 4 % 4, by omega⟩ : Fin 4).val + (3 : Fin 4).val := by
    show t.val = 16 * (t.val / 16) + 4 * (t.val / 4 % 4) + 3
    omega
  funext y
  obtain ⟨p, q, rfl⟩ : ∃ (p q : Fin 1024), y = ix2 p q := ⟨y 0, y 1, ValueIdx.eq_ix2 y⟩
  show (cfg0.win 2).cut (grid0.coords t) ((dats m 0 c).after 2 t) (ix2 p q) = _
  rw [after0_2]
  show ((outsAt0 m c t.val t.isLt).1 : S1024x1024.Idx → Ideal .f32) (ix2 p q) = _
  rw [Accum.flushed_tile m c t.val t.isLt ⟨t.val / 16, by omega⟩ ⟨t.val / 4 % 4, by omega⟩ ht p q]
  refine Eq.trans ?_ (Blocks.oblk2_apply t ⟨t.val / 16, by omega⟩ ⟨t.val / 4 % 4, by omega⟩ 3 ht (product m c) p q).symm
  exact (MM_ix2 _ _ _ _).symm

/-- Every entry `(r, n)` of the result array lies in the tile written at the last point of the group of row block
    `r / 1024` and column block `n / 1024`. -/
theorem cover (r : Fin 8192) (n : Fin 4096) :
    ∃ t : Fin cfg0.N, (cfg0.win 2).flush t = true ∧ (ix2 r n : S8192x4096.Idx) ∈ ((cfg0.win 2).blk t).view.set := by
  have hN : cfg0.N = 128 := N_0
  have hr := r.isLt
  have hn := n.isLt
  obtain ⟨t, ht⟩ : ∃ t : Fin cfg0.N, t.val = 16 * (r.val / 1024) + 4 * (n.val / 1024) + 3 :=
    ⟨⟨16 * (r.val / 1024) + 4 * (n.val / 1024) + 3, by omega⟩, rfl⟩
  have ht' : t.val = 16 * (⟨r.val / 1024, by omega⟩ : Fin 8).val + 4 * (⟨n.val / 1024, by omega⟩ : Fin 4).val + (3 : Fin 4).val := ht
  refine ⟨t, (flush0_2 t).mpr (by omega), ?_⟩
  show (ix2 r n : S8192x4096.Idx) ∈ ((View.whole main_v5).slice (win0_2.rect t)).set
  rw [View.set_slice_whole, Rect.mem_set_unit]
  intro a
  match a with
  | ⟨0, _⟩ =>
    show win0_2.index t 0 * 1024 ≤ r.val ∧ r.val < win0_2.index t 0 * 1024 + 1024
    rw [(Blocks.index2 t _ _ _ ht').1]
    show r.val / 1024 * 1024 ≤ r.val ∧ r.val < r.val / 1024 * 1024 + 1024
    omega
  | ⟨1, _⟩ =>
    show win0_2.index t 1 * 1024 ≤ n.val ∧ n.val < win0_2.index t 1 * 1024 + 1024
    rw [(Blocks.index2 t _ _ _ ht').2]
    show n.val / 1024 * 1024 ≤ n.val ∧ n.val < n.val / 1024 * 1024 + 1024
    omega

/-- THE RESULT ARRAY after the region: the product. -/
theorem final (c : Dev nD) : (dats m 0 c).arrAt 2 cfg0.N = product m c :=
  (dats m 0 c).arrAt_eq_of_cover 2 (product m c) (flushed_eq m c) fun idx => by
    obtain ⟨r, n, rfl⟩ : ∃ (r : Fin 8192) (n : Fin 4096), idx = ix2 r n := ⟨idx 0, idx 1, ValueIdx.eq_ix2 idx⟩
    exact cover r n

end Cert.KernelIdeal.Final

end
-- ==== Proof.KRun.lean ====
/-
  The kernel's program, read whole. Before the region the host forms the two operands: the activations flattened to
  8192 rows (row `4096 * b + s` is position `(b, s)`) and the sign pattern of the weight transposed to features by
  outputs, both changes of float format the identity on the extended reals. The region leaves their product in the
  result array, and the last operation reshapes it back: entry `(b, s, o)` is entry `(4096 * b + s, o)` of the product,
  `∑ₖ x[b, s, k] * sign(w)[o, k]`.
-/
import proofs.«122801_j69595650064888_2_alg».proof.Proof.Gen.KernelIdeal.Frame
import proofs.«122801_j69595650064888_2_alg».proof.Proof.Spec
import proofs.«122801_j69595650064888_2_alg».proof.Proof.HostIn
import proofs.«122801_j69595650064888_2_alg».proof.Proof.Final
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.KRun

open Cert.KernelIdeal Cert.KernelIdeal.Gen Cert.SignLinear

variable (m : (ℓ : Loc nD τ sig) → Buf (Elt Ideal) ℓ) (ρ : Dev nD → PrngReg)

/-- The program's result as a function of its two arguments: the one sum over the features. -/
def result (c : Dev nD) : Buf (Elt Ideal) ((c : Thread nD τ).loc main_v6) :=
  G (m ((c : Thread nD τ).loc main_arg0)) (Host.sign (F := Ideal) (φ := .f32) (m ((c : Thread nD τ).loc main_arg1)))

/-- Row `4096 * b + s`, column `o` of the product of the two operands the region finds is entry `(b, s, o)` of the
    result: the flattened activations' row is position `(b, s)`, the transposed sign pattern's column `o` is its row `o`. -/
theorem product_flat (c : Dev nD) (b : Fin 2) (s o : Fin 4096) :
    MM (V m c main_v4 : S8192x4096.Idx → Ideal .bf16) (V m c main_v2 : S4096x4096.Idx → Ideal .bf16) (ix2 (flat b s) o)
      = G (m ((c : Thread nD τ).loc main_arg0)) (Host.sign (F := Ideal) (φ := .f32) (m ((c : Thread nD τ).loc main_arg1))) (ix3 b s o) := by
  rw [G_ix3, MM_ix2]
  unfold mm
  refine Finset.sum_congr rfl fun k _ => ?_
  exact congrArg₂ (· * ·) (HostIn.V_v4_apply m c b s k) (HostIn.V_v2_apply m c k o)

/-- What the last host operation leaves in the result buffer is that function. -/
theorem tail_eq (c : Dev nD) :
    Pipeline.afterTail₀ cfgs (dats m) 0 (V0 m) [hostOps1] c main_v6 = result m c := by
  funext idx
  obtain ⟨b, s, o, rfl⟩ : ∃ (b : Fin 2) (s o : Fin 4096), idx = ix3 b s o := ⟨idx 0, idx 1, idx 2, eq_ix3 idx⟩
  exact (HostIn.v6_of_final m c (Final.product m c) (Final.final m c) b s o).trans (product_flat m c b s o)

/-- THE KERNEL'S RUN: every weakly fair execution terminates with the result buffer at `result` and both arguments
    as they were. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KRun

end
-- ==== Proof.RefValue.lean ====
/-
  The reference's side: one contraction of the activations with the sign pattern of the weight over the feature
  axis. Read at an index it is the specification's sum, entry `(b, s, o)` being `∑ₖ x[b, s, k] * sw[o, k]`; the sign
  pattern is carried as one unopened function of the weight.
-/
import proofs.«122801_j69595650064888_2_alg».proof.Proof.Gen.ReferenceIdeal.Read
import proofs.«122801_j69595650064888_2_alg».proof.Proof.Spec
import Idealize.ShloMosaic.Lib.ValueIdx

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.SignLinear

/-- The left operand's index at output index `i` and contraction position `k` keeps the first two coordinates of `i`
    and puts `k` on the last axis. -/
theorem lidx_eq (i : S2x4096x4096.Idx) (k : Fin 4096) :
    Cert.ReferenceIdeal.Read.lidx_main_v1 i k
      = ix3 (⟨(i 0).val, (i 0).isLt⟩ : Fin 2) (⟨(i 1).val, (i 1).isLt⟩ : Fin 4096) k :=
  funext fun a => Fin.ext (by match a with | ⟨0, _⟩ => rfl | ⟨1, _⟩ => rfl | ⟨2, _⟩ => rfl)

/-- The right operand's index is the output's last coordinate (the output feature) and `k`. -/
theorem ridx_eq (i : S2x4096x4096.Idx) (k : Fin 4096) :
    Cert.ReferenceIdeal.Read.ridx_main_v1 i k = ix2 (⟨(i 2).val, (i 2).isLt⟩ : Fin 4096) k :=
  funext fun a => Fin.ext (by match a with | ⟨0, _⟩ => rfl | ⟨1, _⟩ => rfl)

/-- The reference's contraction of the activations with the sign pattern over the feature axis is the one sum of the
    specification: entry `(b, s, o)` is the sum over `k` of `x[b, s, k] * sw[o, k]`. -/
theorem ref_is_G (x0 : FVec Ideal S2x4096x4096 .f32) (x1 : FVec Ideal S4096x4096 .f32) :
    Host.dotGeneral (F := Ideal) dot_S2x4096x4096_S4096x4096_S2x4096x4096_2_1_01_0_n_n none x0 (Host.sign (F := Ideal) x1)
      = G x0 (Host.sign (F := Ideal) x1) := by
  funext i
  rw [Cert.ReferenceIdeal.Read.val_main_v1_eq, Cert.ReferenceIdeal.Read.val_main_v1_apply]
  refine Finset.sum_congr rfl fun k _ => ?_
  rw [lidx_eq, ridx_eq]
  rfl

end Cert.ReferenceIdeal.RefValue

end
-- ==== Proof.lean ====
/-
  A linear layer whose weight enters only through its sign: `y[b, s, o] = ∑ₖ x[b, s, k] * sign(w)[o, k]`, over
  `x : [2, 4096, 4096]` and `w : [4096, 4096]`, on the extended reals.

  The reference forms this as one contraction over the 4096 features. The kernel flattens the activations to 8192
  rows, transposes the sign pattern, and multiplies tile by tile over a grid of 8 row blocks, 4 column blocks and 4
  feature blocks of 1024: a scratch tile is zeroed at the first feature block, receives one tile product per feature
  block, and is written to the output at the last; the result is reshaped back. Changes of float format are the
  identity on the extended reals and the sign is the same function on both sides, so the two programs differ only in
  how the sum over the features is grouped: four partial sums of 1024 terms added in turn from zero against one sum of
  4096 terms. Addition of extended reals is commutative and associative, so they agree for every input; the
  finiteness of the inputs is not used.

  The modules: Spec (the function and the regrouping law), Pieces (what each control case of the body leaves, as the
  body's two payloads), Payload (the payloads at an index: zero, and accumulator plus tile product), Blocks (which
  block of which array each window reads at a grid point), Accum (the scratch after each point of a group of four,
  and the tile written back), Final (the tiles cover the result array), HostIn (the host operations before and after
  the region at an index), KRun (the kernel's whole run), RefValue (the reference's contraction is the same sum).
  The three frames come from the generated frame modules and the generated run of the reference; the ideal pass
  rewrote nothing, so there is nothing to preserve.
-/
import proofs.«122801_j69595650064888_2_alg».proof.Defs
import proofs.«122801_j69595650064888_2_alg».proof.Proof.Gen.Kernel
import proofs.«122801_j69595650064888_2_alg».proof.Proof.Gen.Kernel.Skeleton
import proofs.«122801_j69595650064888_2_alg».proof.Proof.Gen.Kernel.Launch
import proofs.«122801_j69595650064888_2_alg».proof.Proof.Gen.Kernel.Points
import proofs.«122801_j69595650064888_2_alg».proof.Proof.Gen.Kernel.Frame
import proofs.«122801_j69595650064888_2_alg».proof.Proof.Gen.KernelIdeal
import proofs.«122801_j69595650064888_2_alg».proof.Proof.Gen.KernelIdeal.Skeleton
import proofs.«122801_j69595650064888_2_alg».proof.Proof.Gen.KernelIdeal.Launch
import proofs.«122801_j69595650064888_2_alg».proof.Proof.Gen.KernelIdeal.Points
import proofs.«122801_j69595650064888_2_alg».proof.Proof.Gen.KernelIdeal.Frame
import proofs.«122801_j69595650064888_2_alg».proof.Proof.Gen.ReferenceIdeal
import proofs.«122801_j69595650064888_2_alg».proof.Proof.Gen.ReferenceIdeal.Run
import proofs.«122801_j69595650064888_2_alg».proof.Proof.Gen.ReferenceIdeal.Read
import proofs.«122801_j69595650064888_2_alg».proof.Proof.Gen.Pre_finite_inputs
import proofs.«122801_j69595650064888_2_alg».proof.Proof.KRun
import proofs.«122801_j69595650064888_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the two arguments, the kernel ends at `∑ₖ x[b, s, k] * sign(w)[o, k]` formed as
    four partial sums (its run), the reference at the same sum formed at once (its contraction read at an index). -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_is_G _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
